-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S128 : Shape := ⟨1, ![128]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S500000x64 .f32) (main_arg1 : FVec F S500000x64 .f32) (main_arg2 : FVec F S128 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000x64 : Shape := ⟨2, ![500000, 64]⟩
abbrev S128 : Shape := ⟨1, ![128]⟩
abbrev S500000x256 : Shape := ⟨2, ![500000, 256]⟩
abbrev S8192x64 : Shape := ⟨2, ![8192, 64]⟩
abbrev S8192x256 : Shape := ⟨2, ![8192, 256]⟩
abbrev S8192x128 : Shape := ⟨2, ![8192, 128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S128, .f32⟩
  | .hbm, ⟨3, _⟩ => ⟨S500000x256, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S128, .f32⟩
  | .local _ .vmem, ⟨5, _⟩ => ⟨S8192x256, .f32⟩
  | .local _ .vmem, ⟨6, _⟩ => ⟨S8192x256, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  inb_S128_S128_0 : ∀ a, (![0] : Fin 1 → Nat) a + S128.size a ≤ S128.size a
  h_S128 : 0 < S128.numel
  concatenates_S8192x64_S8192x64_S8192x128_d1 : Shape.Concatenates [S8192x64, S8192x64] S8192x128 1
  shapeCasts_S128_S1x128 : S128.ShapeCasts S1x128
  shapeCasts_S1x128_S1x128 : S1x128.ShapeCasts S1x128
  broadcasts_S1x128_S8192x128 : S1x128.Broadcasts S8192x128
  inb_S8192x256_S8192x128_0_0 : ∀ a, (![0, 0] : Fin 2 → Nat) a + S8192x128.size a ≤ S8192x256.size a
  h_S8192x128 : 0 < S8192x128.numel
  inb_S8192x256_S8192x128_0_128 : ∀ a, (![0, 128] : Fin 2 → Nat) a + S8192x128.size a ≤ S8192x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S500000x64.size a
  hwx0_0 : ∀ i : grid0.Coords, EltTy.bits .f32 = 32 ∨ (Rect.unit (s := S500000x64) (fun a => cc0_transform_0 i a * S8192x64.size a) (fun a => (Pipeline.Clip.of (cc0_transform_0 i a) (S8192x64.size a) (S500000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S500000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x64.size a < S500000x64.size a
  hwx0_1 : ∀ i : grid0.Coords, EltTy.bits .f32 = 32 ∨ (Rect.unit (s := S500000x64) (fun a => cc0_transform_1 i a * S8192x64.size a) (fun a => (Pipeline.Clip.of (cc0_transform_1 i a) (S8192x64.size a) (S500000x64.size a)).extent (S8192x64.size a)) fun a => Pipeline.Clip.inb (Pipeline.Clip.ok_of (hstart0_1 i a))).WholeWords (EltTy.packing .f32)
  hwxs0_1 : ∀ i : grid0.Coords, EltTy.bits .f32 = 32 ∨ (Rect.unit (s := S8192x64) (fun _ => 0) (fun a => (Pipeline.Clip.of (cc0_transform_1 i a) (S8192x64.size a) (S500000x64.size a)).extent (S8192x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x256.size a < S500000x256.size a
  hwx0_3 : ∀ i : grid0.Coords, EltTy.bits .f32 = 32 ∨ (Rect.unit (s := S500000x256) (fun a => cc0_transform_3 i a * S8192x256.size a) (fun a => (Pipeline.Clip.of (cc0_transform_3 i a) (S8192x256.size a) (S500000x256.size a)).extent (S8192x256.size a)) fun a => Pipeline.Clip.inb (Pipeline.Clip.ok_of (hstart0_3 i a))).WholeWords (EltTy.packing .f32)
  hwxs0_3 : ∀ i : grid0.Coords, EltTy.bits .f32 = 32 ∨ (Rect.unit (s := S8192x256) (fun _ => 0) (fun a => (Pipeline.Clip.of (cc0_transform_3 i a) (S8192x256.size a) (S500000x256.size a)).extent (S8192x256.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_arg0) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S8192x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S8192x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x64 : Shape := ⟨2, ![500000, 64]⟩
abbrev S128 : Shape := ⟨1, ![128]⟩
abbrev S500000x128 : Shape := ⟨2, ![500000, 128]⟩
abbrev S_ : Shape := ⟨0, ![]⟩
abbrev S1x128 : Shape := ⟨2, ![1, 128]⟩
abbrev S500000x256 : Shape := ⟨2, ![500000, 256]⟩

abbrev nBuf : Space → Nat
  | .hbm => 15
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S128, .f32⟩
  | .hbm, ⟨3, _⟩ => ⟨S500000x128, .f32⟩
  | .hbm, ⟨4, _⟩ => ⟨S_, .f32⟩
  | .hbm, ⟨5, _⟩ => ⟨S_, .f32⟩
  | .hbm, ⟨6, _⟩ => ⟨S500000x128, .f32⟩
  | .hbm, ⟨7, _⟩ => ⟨S500000x128, .i1⟩
  | .hbm, ⟨8, _⟩ => ⟨S_, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S1x128, .f32⟩
  | .hbm, ⟨13, _⟩ => ⟨S500000x128, .f32⟩
  | .hbm, ⟨14, _⟩ => ⟨S500000x256, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]

class Facts₀ : Prop where
  concatenates_S500000x64_S500000x64_S500000x128_d1 : Shape.Concatenates [S500000x64, S500000x64] S500000x128 1
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  concatenates_S500000x128_S500000x128_S500000x256_d1 : Shape.Concatenates [S500000x128, S500000x128] S500000x256 1

variable [Facts₀]

class Facts : Prop extends Facts₀ where

variable [Facts]
-- ==== Proof.BodyK.lean ====
/-
  The kernel body as one step: on whole staging buffers holding x0 and x1 (two blocks of 8192 rows by 64), x2 (the
  128-entry vector) and anything in the 8192-by-256 result buffer, the body runs without fault, leaves the three input
  buffers as they were, and leaves the result buffer holding its two stores read back: columns 0..127 the concatenation
  of the two rectified blocks, columns 128..255 the vector repeated down the rows. The two stores tile the buffer, so
  the read-back is the canonical function of the two pieces whatever the buffer held before.
-/
import proofs.«157472_j532575945120_2_alg».proof.Proof.Gen.Kernel.Frame
import proofs.«157472_j532575945120_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8192-by-64 block, the whole vector, and the two halves (columns 0..127 and 128..255) of the result
    block: the rectangles the body loads and stores through. -/
abbrev rIn : Rect S8192x64 := Rect.unit (s := S8192x64) ![0, 0] S8192x64.size Facts₀.inb_S8192x64_S8192x64_0_0
abbrev rVec : Rect S128 := Rect.unit (s := S128) ![0] S128.size Facts₀.inb_S128_S128_0
abbrev rLeft : Rect S8192x256 := Rect.unit (s := S8192x256) ![0, 0] S8192x128.size Facts₀.inb_S8192x256_S8192x128_0_0
abbrev rRight : Rect S8192x256 := Rect.unit (s := S8192x256) ![0, 128] S8192x128.size Facts₀.inb_S8192x256_S8192x128_0_128

/-- What the result buffer holds after the body: its two stores as pieces, the later one first. -/
def out3 (x0 x1 : Vec F S8192x64 .f32) (x2 : Vec F S128 .f32) : Vec F S8192x256 .f32 :=
  View.canon [⟨rRight, k0_pay2 (View.ld x2 rVec)⟩, ⟨rLeft, k0_pay1 (View.ld x0 rIn) (View.ld x1 rIn)⟩]

/-- The two halves tile the result block, so every index of it lies in one of them. -/
theorem cover3 (pR pL : Vec F S8192x128 .f32) (y : S8192x256.Idx) :
    ∃ pc ∈ ([⟨rRight, pR⟩, ⟨rLeft, pL⟩] : List (View.Piece (Elt F) S8192x256 .f32)), y ∈ pc.1.set :=
  View.cover_of_tiled [⟨rRight, pR⟩, ⟨rLeft, pL⟩] S8192x128.size (by rfl) y

set_option maxHeartbeats 1000000 in
/-- The body's step, on any whole staging buffers. -/
theorem sound_kernel (c : Dev nD) (E : Set ℕ) (i : grid0.Coords)
    (arg1 : Memref sig .tc .vmem S8192x64 .f32) (harg1 : arg1.IsWhole) (arg2 : Memref sig .tc .vmem S8192x64 .f32) (harg2 : arg2.IsWhole)
    (arg3 : Memref sig .tc .vmem S128 .f32) (harg3 : arg3.IsWhole) (arg4 : Memref sig .tc .vmem S8192x256 .f32) (harg4 : arg4.IsWhole)
    (x0 x1 : Vec F S8192x64 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__checkin_kernel i arg1 harg1 arg2 harg2 arg3 harg3 arg4 harg4) K := by
  simp only [cc0__checkin_kernel_eq_skeleton]; unfold cc0__checkin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

end Cert.Kernel.Body

end
-- ==== Proof.Spec.lean ====
/-
  The result both programs compute, as one function of the three argument arrays.

  Row r of the result (256 entries) is: the leaky rectifier of row r of the first table (entries 0..63), the leaky
  rectifier of row r of the second table (entries 64..127), then the 128-entry vector (entries 128..255), the same in
  every row. The leaky rectifier keeps x when x >= 0 and otherwise multiplies it by the slope, the binary32 word
  0x3E4CCCCD (the float nearest 0.2); the same word stands on both sides, so its exact value is never needed.
  Everything here is stated for any interpretation of the floats: at the exact one (extended reals) it is the
  statement of equality with the reference, and at any other it still says which entries of the arguments an entry of
  the result depends on.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The leaky rectifier on one float: x if x >= 0, else x times the slope word. -/
def leaky (x : F .f32) : F .f32 :=
  Scalar.select (FloatOps.cmpf .oge x (Scalar.ofBits .f32 0x00000000#32)) x
    (FloatOps.mulf x (Scalar.ofBits .f32 0x3E4CCCCD#32))

/-- One row of the result from one row of each table and the vector: entry q of 256. Stated for any number of rows
    n, so that it serves the whole arrays (n = 500000) and one block of rows (n = 8192) alike. -/
def rowAt {n : Nat} (hot reg : (⟨2, ![n, 64]⟩ : Shape).Idx → F .f32) (user : (⟨1, ![128]⟩ : Shape).Idx → F .f32)
    (r : Fin n) (q : Fin 256) : F .f32 :=
  if h : q.val < 64 then leaky (hot (ix2 r ⟨q.val, h⟩))
  else if h2 : q.val < 128 then leaky (reg (ix2 r ⟨q.val - 64, by omega⟩))
  else user (ix1 ⟨q.val - 128, by have := q.isLt; omega⟩)

/-- The whole result, n rows of 256 entries. -/
def G {n : Nat} (hot reg : (⟨2, ![n, 64]⟩ : Shape).Idx → F .f32) (user : (⟨1, ![128]⟩ : Shape).Idx → F .f32) :
    (⟨2, ![n, 256]⟩ : Shape).Idx → F .f32 :=
  fun j => rowAt hot reg user (j 0) (j 1)

theorem G_apply {n : Nat} (hot reg : (⟨2, ![n, 64]⟩ : Shape).Idx → F .f32) (user : (⟨1, ![128]⟩ : Shape).Idx → F .f32)
    (r : Fin n) (q : Fin 256) : G hot reg user (ix2 r q) = rowAt hot reg user r q := rfl

/-- The three column ranges, with the caller naming the column of the piece. -/
theorem rowAt_left {n : Nat} (hot reg : (⟨2, ![n, 64]⟩ : Shape).Idx → F .f32) (user : (⟨1, ![128]⟩ : Shape).Idx → F .f32)
    (r : Fin n) (q : Fin 256) (k : Fin 64) (hk : k.val = q.val) : rowAt hot reg user r q = leaky (hot (ix2 r k)) := by
  unfold rowAt
  rw [dif_pos (show q.val < 64 by have := k.isLt; omega)]
  exact congrArg (fun k' => leaky (hot (ix2 r k'))) (Fin.ext hk.symm)

theorem rowAt_mid {n : Nat} (hot reg : (⟨2, ![n, 64]⟩ : Shape).Idx → F .f32) (user : (⟨1, ![128]⟩ : Shape).Idx → F .f32)
    (r : Fin n) (q : Fin 256) (k : Fin 64) (hk : 64 + k.val = q.val) : rowAt hot reg user r q = leaky (reg (ix2 r k)) := by
  unfold rowAt
  rw [dif_neg (show ¬ q.val < 64 by omega), dif_pos (show q.val < 128 by have := k.isLt; omega)]
  exact congrArg (fun k' => leaky (reg (ix2 r k'))) (Fin.ext (by show q.val - 64 = k.val; omega))

theorem rowAt_right {n : Nat} (hot reg : (⟨2, ![n, 64]⟩ : Shape).Idx → F .f32) (user : (⟨1, ![128]⟩ : Shape).Idx → F .f32)
    (r : Fin n) (q : Fin 256) (k : Fin 128) (hk : 128 + k.val = q.val) : rowAt hot reg user r q = user (ix1 k) := by
  unfold rowAt
  rw [dif_neg (show ¬ q.val < 64 by omega), dif_neg (show ¬ q.val < 128 by omega)]
  exact congrArg (fun k' => user (ix1 k')) (Fin.ext (by show q.val - 128 = k.val; omega))

/-- An entry of the result depends on the tables only through the row it lies in. -/
theorem rowAt_congr {n : Nat} (hot hot' reg reg' : (⟨2, ![n, 64]⟩ : Shape).Idx → F .f32)
    (user : (⟨1, ![128]⟩ : Shape).Idx → F .f32) (r : Fin n) (q : Fin 256)
    (hh : ∀ k : Fin 64, hot (ix2 r k) = hot' (ix2 r k)) (hr : ∀ k : Fin 64, reg (ix2 r k) = reg' (ix2 r k)) :
    rowAt hot reg user r q = rowAt hot' reg' user r q := by
  unfold rowAt
  split
  · rw [hh]
  · split
    · rw [hr]
    · rfl

end Cert.Spec

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.OutK.lean ====
/-
  The result block in closed form. What the body leaves in the 8192-by-256 result buffer (its two stores read back)
  is, entry by entry, the specification's function of the two 8192-by-64 blocks and the 128-entry vector: entry
  (r, q) is the rectified entry (r, q) of the first block for q < 64, the rectified entry (r, q - 64) of the second
  for 64 <= q < 128, and entry q - 128 of the vector from there on. It holds for any interpretation of the floats:
  only the layout operations are read here (a side-by-side concatenation, a vector recast as one row and repeated
  down the rows); the arithmetic is pointwise and is the same text on both sides.
-/
import proofs.«157472_j532575945120_2_alg».proof.Proof.BodyK
import proofs.«157472_j532575945120_2_alg».proof.Proof.Spec
import proofs.«157472_j532575945120_2_alg».proof.Proof.LibConcatCols
import Idealize.ShloMosaic.Lib.Pipeline.Value
import Idealize.ShloMosaic.Lib.ValueLayout
import Idealize.ShloMosaic.Lib.ValueIdx

set_option maxRecDepth 16384

noncomputable section

namespace Cert.Kernel.Body

open Cert.Kernel Cert.Kernel.Gen
open Idealize.ShloMosaic Idealize.ShloMosaic.ValueIdx Cert.Lib.ConcatCols

variable {F : FTy → Type} [FloatOps F]

/-- The first store's value at (r, q): the two rectified blocks side by side. -/
theorem pay1_apply (v0 v1 : Vec F S8192x64 .f32) (r : Fin 8192) (q : Fin 128) :
    k0_pay1 v0 v1 (ix2 r q)
      = if h : q.val < 64 then Cert.Spec.leaky (v0 (ix2 r ⟨q.val, h⟩))
        else Cert.Spec.leaky (v1 (ix2 r ⟨q.val - 64, by have := q.isLt; omega⟩)) := by
  unfold k0_pay1
  split
  · next h => exact (concat_cols_left _ _ _ r q ⟨q.val, h⟩ rfl).trans rfl
  · next h =>
    exact (concat_cols_right _ _ _ r q ⟨q.val - 64, by have := q.isLt; omega⟩ (by show 64 + (q.val - 64) = q.val; omega)).trans rfl

/-- The second store's value at (r, q): the vector's entry q, in every row. -/
theorem pay2_apply (v2 : Vec F S128 .f32) (r : Fin 8192) (q : Fin 128) : k0_pay2 v2 (ix2 r q) = v2 (ix1 q) := by
  unfold k0_pay2
  refine (broadcastTo_1b_ab_apply _ _ r q).trans ?_
  rw [shapeCast_self]
  exact shapeCast_a_1a_apply _ _ 0 q

/-- The body's result block is the specification's function of its three inputs. -/
theorem out3_eq_G (x0 x1 : Vec F S8192x64 .f32) (x2 : Vec F S128 .f32) :
    out3 x0 x1 x2 = Cert.Spec.G (n := 8192) x0 x1 x2 := by
  have hz2 : (![0, 0] : Fin 2 → Nat) = fun _ => 0 := funext fun a => by fin_cases a <;> rfl
  have hz1 : (![0] : Fin 1 → Nat) = fun _ => 0 := funext fun a => by fin_cases a; rfl
  funext y
  unfold out3
  rw [View.ld_unit_zero (S := S8192x64) hz2, View.ld_unit_zero (S := S8192x64) hz2, View.ld_unit_zero (S := S128) hz1]
  refine View.canon_apply_of_pieces (Cert.Spec.G (n := 8192) x0 x1 x2) _ ?_ y (cover3 _ _ y)
  intro p hp x
  rcases List.mem_cons.mp hp with rfl | hp
  · -- the right half: columns 128 + q
    obtain ⟨r, q, rfl⟩ : ∃ (r : Fin 8192) (q : Fin 128), x = ix2 r q := ⟨x 0, x 1, eq_ix2 x⟩
    have he : rRight.emb (ix2 r q) = ix2 r (⟨128 + q.val, by have := q.isLt; omega⟩ : Fin 256) :=
      funext fun a => Fin.ext (by
        rw [Rect.emb_apply]
        match a with
        | ⟨0, _⟩ => show 0 + 1 * r.val = r.val; omega
        | ⟨1, _⟩ => show 128 + 1 * q.val = 128 + q.val; omega)
    show k0_pay2 x2 (ix2 r q) = _
    rw [pay2_apply, he, Cert.Spec.G_apply]
    exact (Cert.Spec.rowAt_right x0 x1 x2 r _ q rfl).symm
  · rcases List.mem_singleton.mp hp with rfl
    -- the left half: columns q < 128
    obtain ⟨r, q, rfl⟩ : ∃ (r : Fin 8192) (q : Fin 128), x = ix2 r q := ⟨x 0, x 1, eq_ix2 x⟩
    have he : rLeft.emb (ix2 r q) = ix2 r (⟨q.val, by have := q.isLt; omega⟩ : Fin 256) :=
      funext fun a => Fin.ext (by
        rw [Rect.emb_apply]
        match a with
        | ⟨0, _⟩ => show 0 + 1 * r.val = r.val; omega
        | ⟨1, _⟩ => show 0 + 1 * q.val = q.val; omega)
    show k0_pay1 x0 x1 (ix2 r q) = _
    rw [pay1_apply, he, Cert.Spec.G_apply]
    split
    · next h => exact (Cert.Spec.rowAt_left x0 x1 x2 r _ ⟨q.val, h⟩ rfl).symm
    · next h => exact (Cert.Spec.rowAt_mid x0 x1 x2 r _ ⟨q.val - 64, by have := q.isLt; omega⟩ (by show 64 + (q.val - 64) = q.val; omega)).symm

end Cert.Kernel.Body

end
-- ==== Proof.FrameK.lean ====
/-
  The whole run of the kernel's program, for any interpretation of the floats.

  The grid has 62 points; point t works on rows 8192 t .. 8192 t + 8191 of the two tables and of the result, and the
  array has 500000 = 61 * 8192 + 288 rows, so the last point's blocks overhang the arrays: only their first 288 rows
  are moved, on the way in and on the way out, and the rest of each staging buffer holds words nothing names. The
  proof data therefore states each staging buffer only up to its rows past the array's end: an input buffer holds its
  block of the table on the rows inside the array, and the result buffer holds the body's function of the three input
  buffers, which row by row reads only the same row of the inputs — so on the rows inside the array it does not
  depend on what filled the inputs' tails. The 128-entry vector is fetched once and found in place at every point.
-/
import proofs.«157472_j532575945120_2_alg».proof.Proof.OutK

set_option maxRecDepth 16384

noncomputable section

namespace Cert.Kernel.Frm

open Cert.Kernel Cert.Kernel.Gen Cert.Kernel.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The moved parts of the three row-blocked windows agree -/

/-- At every point the two tables' windows and the result's window move the same number of rows, and all of their
    columns (64, 64 and 256). -/
theorem xs_facts : ∀ t : Fin cfg0.N,
    win0_0.xsize (grid0.coords t) 0 = win0_3.xsize (grid0.coords t) 0
    ∧ win0_1.xsize (grid0.coords t) 0 = win0_3.xsize (grid0.coords t) 0
    ∧ win0_0.xsize (grid0.coords t) 1 = 64 ∧ win0_1.xsize (grid0.coords t) 1 = 64
    ∧ win0_3.xsize (grid0.coords t) 1 = 256 :=
  (by decide +kernel : ∀ t : Fin grid0.N,
    win0_0.xsize (grid0.coords t) 0 = win0_3.xsize (grid0.coords t) 0
    ∧ win0_1.xsize (grid0.coords t) 0 = win0_3.xsize (grid0.coords t) 0
    ∧ win0_0.xsize (grid0.coords t) 1 = 64 ∧ win0_1.xsize (grid0.coords t) 1 = 64
    ∧ win0_3.xsize (grid0.coords t) 1 = 256)

/-- On the moved part a filled block does not depend on the filler. -/
theorem fill_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The proof data -/

/-- The first table's block at point t as a whole staging buffer: the block on the rows inside the array, the zero
    word on the rest (nothing reads the rest). -/
def in0 (c : Dev nD) (t : Fin cfg0.N) : S8192x64.Idx → Elt F .f32 :=
  win0_0.fill (grid0.coords t) (fun _ => Scalar.ofBits .f32 0#32) (iblk m c 0 t)
/-- The second table's likewise. -/
def in1 (c : Dev nD) (t : Fin cfg0.N) : S8192x64.Idx → Elt F .f32 :=
  win0_1.fill (grid0.coords t) (fun _ => Scalar.ofBits .f32 0#32) (iblk m c 1 t)

/-- The proof data of the one pipeline on core c: the arrays as the region finds them; after the body at point t
    the two tables' buffers at their blocks (filled out), the vector's at the vector, the result's at the body's
    function of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => iblk m c 2 t
    | ⟨3, _⟩ => out3 (in0 m c t) (in1 m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out3 (in0 m c t) (in1 m c t) (iblk m c 2 t) := by dsimp only [dats]

/-- What the body finds in the tables' buffers: the block just fetched on the rows inside the array, anything on the
    rest; -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- and in the vector's buffer the vector, fetched at this point or not. -/
theorem before0_2 (c : Dev nD) (t : Fin cfg0.N) (d) : (dats m 0 c).before 2 t d = iblk m c 2 t :=
  before0_2_of m (dats m 0 c) (A_eq m c 2) (after0_2 m c) t d

/-- The moved part of a filled-out block is the block. -/
theorem cut_in0 (c : Dev nD) (t : Fin cfg0.N) : (cfg0.win 0).cut (cfg0.grid.coords t) (in0 m c t) = iblk m c 0 t :=
  win0_0.cut_fill _ _ _
theorem cut_in1 (c : Dev nD) (t : Fin cfg0.N) : (cfg0.win 1).cut (cfg0.grid.coords t) (in1 m c t) = iblk m c 1 t :=
  win0_1.cut_fill _ _ _

/-- On the rows the write-back moves, the body's result does not depend on what fills the tables' buffers past the
    array's end: entry (r, q) reads row r of the inputs only, and row r is inside the array in all three windows. -/
theorem cut_out3 (c : Dev nD) (t : Fin cfg0.N) (d0 d1 : S8192x64.Idx → Elt F .f32) :
    (cfg0.win 3).cut (cfg0.grid.coords t)
        (out3 (win0_0.fill (grid0.coords t) d0 (iblk m c 0 t)) (win0_1.fill (grid0.coords t) d1 (iblk m c 1 t)) (iblk m c 2 t))
      = (cfg0.win 3).cut (cfg0.grid.coords t) (out3 (in0 m c t) (in1 m c t) (iblk m c 2 t)) := by
  obtain ⟨h0, h1, h0c, h1c, -⟩ := xs_facts t
  funext j
  show out3 _ _ _ (win0_3.xinj (grid0.coords t) j) = out3 _ _ _ (win0_3.xinj (grid0.coords t) j)
  rw [out3_eq_G, out3_eq_G]
  have hj : ((win0_3.xinj (grid0.coords t) j) 0).val < win0_3.xsize (grid0.coords t) 0 := (j 0).isLt
  refine Cert.Spec.rowAt_congr _ _ _ _ _ _ _ (fun k => ?_) (fun k => ?_)
  · refine fill_of_moved win0_0 _ _ _ _ _ ((win0_0.moved_iff _ _).mpr fun a => ?_)
    match a with
    | ⟨0, _⟩ => exact hj.trans_eq h0.symm
    | ⟨1, _⟩ => exact k.isLt.trans_eq h0c.symm
  · refine fill_of_moved win0_1 _ _ _ _ _ ((win0_1.moved_iff _ _).mpr fun a => ?_)
    match a with
    | ⟨0, _⟩ => exact hj.trans_eq h1.symm
    | ⟨1, _⟩ => exact k.isLt.trans_eq h1c.symm

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the three row-blocked windows stated on their moved parts only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, cut_in0, cut_in1]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (out3 (win0_0.fill (grid0.coords t) d0 (iblk m c 0 t)) (win0_1.fill (grid0.coords t) d1 (iblk m c 1 t)) (iblk m c 2 t))
  rw [(cfg0.win 3).fill_congr_cut (cfg0.grid.coords t) (cut_out3 m c t d0 d1)]
  iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without fault, every array of the pipeline ends at what the
    proof data computes, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.BodyI.lean ====
/-
  The kernel body as one step: on whole staging buffers holding x0 and x1 (two blocks of 8192 rows by 64), x2 (the
  128-entry vector) and anything in the 8192-by-256 result buffer, the body runs without fault, leaves the three input
  buffers as they were, and leaves the result buffer holding its two stores read back: columns 0..127 the concatenation
  of the two rectified blocks, columns 128..255 the vector repeated down the rows. The two stores tile the buffer, so
  the read-back is the canonical function of the two pieces whatever the buffer held before.
-/
import proofs.«157472_j532575945120_2_alg».proof.Proof.Gen.KernelIdeal.Frame
import proofs.«157472_j532575945120_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8192-by-64 block, the whole vector, and the two halves (columns 0..127 and 128..255) of the result
    block: the rectangles the body loads and stores through. -/
abbrev rIn : Rect S8192x64 := Rect.unit (s := S8192x64) ![0, 0] S8192x64.size Facts₀.inb_S8192x64_S8192x64_0_0
abbrev rVec : Rect S128 := Rect.unit (s := S128) ![0] S128.size Facts₀.inb_S128_S128_0
abbrev rLeft : Rect S8192x256 := Rect.unit (s := S8192x256) ![0, 0] S8192x128.size Facts₀.inb_S8192x256_S8192x128_0_0
abbrev rRight : Rect S8192x256 := Rect.unit (s := S8192x256) ![0, 128] S8192x128.size Facts₀.inb_S8192x256_S8192x128_0_128

/-- What the result buffer holds after the body: its two stores as pieces, the later one first. -/
def out3 (x0 x1 : Vec F S8192x64 .f32) (x2 : Vec F S128 .f32) : Vec F S8192x256 .f32 :=
  View.canon [⟨rRight, k0_pay2 (View.ld x2 rVec)⟩, ⟨rLeft, k0_pay1 (View.ld x0 rIn) (View.ld x1 rIn)⟩]

/-- The two halves tile the result block, so every index of it lies in one of them. -/
theorem cover3 (pR pL : Vec F S8192x128 .f32) (y : S8192x256.Idx) :
    ∃ pc ∈ ([⟨rRight, pR⟩, ⟨rLeft, pL⟩] : List (View.Piece (Elt F) S8192x256 .f32)), y ∈ pc.1.set :=
  View.cover_of_tiled [⟨rRight, pR⟩, ⟨rLeft, pL⟩] S8192x128.size (by rfl) y

set_option maxHeartbeats 1000000 in
/-- The body's step, on any whole staging buffers. -/
theorem sound_kernel (c : Dev nD) (E : Set ℕ) (i : grid0.Coords)
    (arg1 : Memref sig .tc .vmem S8192x64 .f32) (harg1 : arg1.IsWhole) (arg2 : Memref sig .tc .vmem S8192x64 .f32) (harg2 : arg2.IsWhole)
    (arg3 : Memref sig .tc .vmem S128 .f32) (harg3 : arg3.IsWhole) (arg4 : Memref sig .tc .vmem S8192x256 .f32) (harg4 : arg4.IsWhole)
    (x0 x1 : Vec F S8192x64 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__checkin_kernel i arg1 harg1 arg2 harg2 arg3 harg3 arg4 harg4) K := by
  simp only [cc0__checkin_kernel_eq_skeleton]; unfold cc0__checkin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

end Cert.KernelIdeal.Body

end
-- ==== Proof.OutI.lean ====
/-
  The result block in closed form. What the body leaves in the 8192-by-256 result buffer (its two stores read back)
  is, entry by entry, the specification's function of the two 8192-by-64 blocks and the 128-entry vector: entry
  (r, q) is the rectified entry (r, q) of the first block for q < 64, the rectified entry (r, q - 64) of the second
  for 64 <= q < 128, and entry q - 128 of the vector from there on. It holds for any interpretation of the floats:
  only the layout operations are read here (a side-by-side concatenation, a vector recast as one row and repeated
  down the rows); the arithmetic is pointwise and is the same text on both sides.
-/
import proofs.«157472_j532575945120_2_alg».proof.Proof.BodyI
import proofs.«157472_j532575945120_2_alg».proof.Proof.Spec
import proofs.«157472_j532575945120_2_alg».proof.Proof.LibConcatCols
import Idealize.ShloMosaic.Lib.Pipeline.Value
import Idealize.ShloMosaic.Lib.ValueLayout
import Idealize.ShloMosaic.Lib.ValueIdx

set_option maxRecDepth 16384

noncomputable section

namespace Cert.KernelIdeal.Body

open Cert.KernelIdeal Cert.KernelIdeal.Gen
open Idealize.ShloMosaic Idealize.ShloMosaic.ValueIdx Cert.Lib.ConcatCols

variable {F : FTy → Type} [FloatOps F]

/-- The first store's value at (r, q): the two rectified blocks side by side. -/
theorem pay1_apply (v0 v1 : Vec F S8192x64 .f32) (r : Fin 8192) (q : Fin 128) :
    k0_pay1 v0 v1 (ix2 r q)
      = if h : q.val < 64 then Cert.Spec.leaky (v0 (ix2 r ⟨q.val, h⟩))
        else Cert.Spec.leaky (v1 (ix2 r ⟨q.val - 64, by have := q.isLt; omega⟩)) := by
  unfold k0_pay1
  split
  · next h => exact (concat_cols_left _ _ _ r q ⟨q.val, h⟩ rfl).trans rfl
  · next h =>
    exact (concat_cols_right _ _ _ r q ⟨q.val - 64, by have := q.isLt; omega⟩ (by show 64 + (q.val - 64) = q.val; omega)).trans rfl

/-- The second store's value at (r, q): the vector's entry q, in every row. -/
theorem pay2_apply (v2 : Vec F S128 .f32) (r : Fin 8192) (q : Fin 128) : k0_pay2 v2 (ix2 r q) = v2 (ix1 q) := by
  unfold k0_pay2
  refine (broadcastTo_1b_ab_apply _ _ r q).trans ?_
  rw [shapeCast_self]
  exact shapeCast_a_1a_apply _ _ 0 q

/-- The body's result block is the specification's function of its three inputs. -/
theorem out3_eq_G (x0 x1 : Vec F S8192x64 .f32) (x2 : Vec F S128 .f32) :
    out3 x0 x1 x2 = Cert.Spec.G (n := 8192) x0 x1 x2 := by
  have hz2 : (![0, 0] : Fin 2 → Nat) = fun _ => 0 := funext fun a => by fin_cases a <;> rfl
  have hz1 : (![0] : Fin 1 → Nat) = fun _ => 0 := funext fun a => by fin_cases a; rfl
  funext y
  unfold out3
  rw [View.ld_unit_zero (S := S8192x64) hz2, View.ld_unit_zero (S := S8192x64) hz2, View.ld_unit_zero (S := S128) hz1]
  refine View.canon_apply_of_pieces (Cert.Spec.G (n := 8192) x0 x1 x2) _ ?_ y (cover3 _ _ y)
  intro p hp x
  rcases List.mem_cons.mp hp with rfl | hp
  · -- the right half: columns 128 + q
    obtain ⟨r, q, rfl⟩ : ∃ (r : Fin 8192) (q : Fin 128), x = ix2 r q := ⟨x 0, x 1, eq_ix2 x⟩
    have he : rRight.emb (ix2 r q) = ix2 r (⟨128 + q.val, by have := q.isLt; omega⟩ : Fin 256) :=
      funext fun a => Fin.ext (by
        rw [Rect.emb_apply]
        match a with
        | ⟨0, _⟩ => show 0 + 1 * r.val = r.val; omega
        | ⟨1, _⟩ => show 128 + 1 * q.val = 128 + q.val; omega)
    show k0_pay2 x2 (ix2 r q) = _
    rw [pay2_apply, he, Cert.Spec.G_apply]
    exact (Cert.Spec.rowAt_right x0 x1 x2 r _ q rfl).symm
  · rcases List.mem_singleton.mp hp with rfl
    -- the left half: columns q < 128
    obtain ⟨r, q, rfl⟩ : ∃ (r : Fin 8192) (q : Fin 128), x = ix2 r q := ⟨x 0, x 1, eq_ix2 x⟩
    have he : rLeft.emb (ix2 r q) = ix2 r (⟨q.val, by have := q.isLt; omega⟩ : Fin 256) :=
      funext fun a => Fin.ext (by
        rw [Rect.emb_apply]
        match a with
        | ⟨0, _⟩ => show 0 + 1 * r.val = r.val; omega
        | ⟨1, _⟩ => show 0 + 1 * q.val = q.val; omega)
    show k0_pay1 x0 x1 (ix2 r q) = _
    rw [pay1_apply, he, Cert.Spec.G_apply]
    split
    · next h => exact (Cert.Spec.rowAt_left x0 x1 x2 r _ ⟨q.val, h⟩ rfl).symm
    · next h => exact (Cert.Spec.rowAt_mid x0 x1 x2 r _ ⟨q.val - 64, by have := q.isLt; omega⟩ (by show 64 + (q.val - 64) = q.val; omega)).symm

end Cert.KernelIdeal.Body

end
-- ==== Proof.FrameI.lean ====
/-
  The whole run of the kernel's program, for any interpretation of the floats.

  The grid has 62 points; point t works on rows 8192 t .. 8192 t + 8191 of the two tables and of the result, and the
  array has 500000 = 61 * 8192 + 288 rows, so the last point's blocks overhang the arrays: only their first 288 rows
  are moved, on the way in and on the way out, and the rest of each staging buffer holds words nothing names. The
  proof data therefore states each staging buffer only up to its rows past the array's end: an input buffer holds its
  block of the table on the rows inside the array, and the result buffer holds the body's function of the three input
  buffers, which row by row reads only the same row of the inputs — so on the rows inside the array it does not
  depend on what filled the inputs' tails. The 128-entry vector is fetched once and found in place at every point.
-/
import proofs.«157472_j532575945120_2_alg».proof.Proof.OutI

set_option maxRecDepth 16384

noncomputable section

namespace Cert.KernelIdeal.Frm

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The moved parts of the three row-blocked windows agree -/

/-- At every point the two tables' windows and the result's window move the same number of rows, and all of their
    columns (64, 64 and 256). -/
theorem xs_facts : ∀ t : Fin cfg0.N,
    win0_0.xsize (grid0.coords t) 0 = win0_3.xsize (grid0.coords t) 0
    ∧ win0_1.xsize (grid0.coords t) 0 = win0_3.xsize (grid0.coords t) 0
    ∧ win0_0.xsize (grid0.coords t) 1 = 64 ∧ win0_1.xsize (grid0.coords t) 1 = 64
    ∧ win0_3.xsize (grid0.coords t) 1 = 256 :=
  (by decide +kernel : ∀ t : Fin grid0.N,
    win0_0.xsize (grid0.coords t) 0 = win0_3.xsize (grid0.coords t) 0
    ∧ win0_1.xsize (grid0.coords t) 0 = win0_3.xsize (grid0.coords t) 0
    ∧ win0_0.xsize (grid0.coords t) 1 = 64 ∧ win0_1.xsize (grid0.coords t) 1 = 64
    ∧ win0_3.xsize (grid0.coords t) 1 = 256)

/-- On the moved part a filled block does not depend on the filler. -/
theorem fill_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The proof data -/

/-- The first table's block at point t as a whole staging buffer: the block on the rows inside the array, the zero
    word on the rest (nothing reads the rest). -/
def in0 (c : Dev nD) (t : Fin cfg0.N) : S8192x64.Idx → Elt F .f32 :=
  win0_0.fill (grid0.coords t) (fun _ => Scalar.ofBits .f32 0#32) (iblk m c 0 t)
/-- The second table's likewise. -/
def in1 (c : Dev nD) (t : Fin cfg0.N) : S8192x64.Idx → Elt F .f32 :=
  win0_1.fill (grid0.coords t) (fun _ => Scalar.ofBits .f32 0#32) (iblk m c 1 t)

/-- The proof data of the one pipeline on core c: the arrays as the region finds them; after the body at point t
    the two tables' buffers at their blocks (filled out), the vector's at the vector, the result's at the body's
    function of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => iblk m c 2 t
    | ⟨3, _⟩ => out3 (in0 m c t) (in1 m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out3 (in0 m c t) (in1 m c t) (iblk m c 2 t) := by dsimp only [dats]

/-- What the body finds in the tables' buffers: the block just fetched on the rows inside the array, anything on the
    rest; -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- and in the vector's buffer the vector, fetched at this point or not. -/
theorem before0_2 (c : Dev nD) (t : Fin cfg0.N) (d) : (dats m 0 c).before 2 t d = iblk m c 2 t :=
  before0_2_of m (dats m 0 c) (A_eq m c 2) (after0_2 m c) t d

/-- The moved part of a filled-out block is the block. -/
theorem cut_in0 (c : Dev nD) (t : Fin cfg0.N) : (cfg0.win 0).cut (cfg0.grid.coords t) (in0 m c t) = iblk m c 0 t :=
  win0_0.cut_fill _ _ _
theorem cut_in1 (c : Dev nD) (t : Fin cfg0.N) : (cfg0.win 1).cut (cfg0.grid.coords t) (in1 m c t) = iblk m c 1 t :=
  win0_1.cut_fill _ _ _

/-- On the rows the write-back moves, the body's result does not depend on what fills the tables' buffers past the
    array's end: entry (r, q) reads row r of the inputs only, and row r is inside the array in all three windows. -/
theorem cut_out3 (c : Dev nD) (t : Fin cfg0.N) (d0 d1 : S8192x64.Idx → Elt F .f32) :
    (cfg0.win 3).cut (cfg0.grid.coords t)
        (out3 (win0_0.fill (grid0.coords t) d0 (iblk m c 0 t)) (win0_1.fill (grid0.coords t) d1 (iblk m c 1 t)) (iblk m c 2 t))
      = (cfg0.win 3).cut (cfg0.grid.coords t) (out3 (in0 m c t) (in1 m c t) (iblk m c 2 t)) := by
  obtain ⟨h0, h1, h0c, h1c, -⟩ := xs_facts t
  funext j
  show out3 _ _ _ (win0_3.xinj (grid0.coords t) j) = out3 _ _ _ (win0_3.xinj (grid0.coords t) j)
  rw [out3_eq_G, out3_eq_G]
  have hj : ((win0_3.xinj (grid0.coords t) j) 0).val < win0_3.xsize (grid0.coords t) 0 := (j 0).isLt
  refine Cert.Spec.rowAt_congr _ _ _ _ _ _ _ (fun k => ?_) (fun k => ?_)
  · refine fill_of_moved win0_0 _ _ _ _ _ ((win0_0.moved_iff _ _).mpr fun a => ?_)
    match a with
    | ⟨0, _⟩ => exact hj.trans_eq h0.symm
    | ⟨1, _⟩ => exact k.isLt.trans_eq h0c.symm
  · refine fill_of_moved win0_1 _ _ _ _ _ ((win0_1.moved_iff _ _).mpr fun a => ?_)
    match a with
    | ⟨0, _⟩ => exact hj.trans_eq h1.symm
    | ⟨1, _⟩ => exact k.isLt.trans_eq h1c.symm

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the three row-blocked windows stated on their moved parts only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, cut_in0, cut_in1]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (out3 (win0_0.fill (grid0.coords t) d0 (iblk m c 0 t)) (win0_1.fill (grid0.coords t) d1 (iblk m c 1 t)) (iblk m c 2 t))
  rw [(cfg0.win 3).fill_congr_cut (cfg0.grid.coords t) (cut_out3 m c t d0 d1)]
  iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without fault, every array of the pipeline ends at what the
    proof data computes, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frm

end
-- ==== Proof.ValI.lean ====
/-
  The result array after the run, as one function of the three argument arrays, for any interpretation of the floats.

  Point t writes back rows 8192 t .. of the result, as many as lie inside the array (8192, and 288 at the last point),
  all 256 columns. What it writes is the specification's function of the blocks of the tables at the same rows and of
  the vector, which is the block at those rows of the specification's function of the whole arrays. The 62 blocks
  cover the 500000 rows (row r lies in the block of point r / 8192), so the array ends holding that function.
-/
import proofs.«157472_j532575945120_2_alg».proof.Proof.FrameI

set_option maxRecDepth 16384

noncomputable section

namespace Cert.KernelIdeal.Val

open Cert.KernelIdeal Cert.KernelIdeal.Gen Cert.KernelIdeal.Body Cert.KernelIdeal.Frm
open Idealize.ShloMosaic Idealize.ShloMosaic.TcCoe Idealize.ShloMosaic.ValueIdx Idealize.SL.Sem
open Idealize.ShloMosaic.Pipeline (Dat Window)

variable {F : FTy → Type} [FloatOps F]
variable (m : (ℓ : Loc nD τ sig) → Buf (Elt F) ℓ) (ρ : Dev nD → PrngReg)

/-- The specification's function of the argument arrays as the region finds them. -/
abbrev GV (c : Dev nD) : S500000x256.Idx → Elt F .f32 :=
  Cert.Spec.G (n := 500000) (V m c main_arg0) (V m c main_arg1) (V m c main_arg2)

/-- The printed index maps and cuts, decided over the 62 points: the three row-blocked windows are at block row t,
    block column 0; the vector's window at block 0; the moved rows are 8192, or 288 at the last point. -/
theorem idx_facts : ∀ t : Fin cfg0.N,
    win0_0.index t 0 = t.val ∧ win0_0.index t 1 = 0
    ∧ win0_1.index t 0 = t.val ∧ win0_1.index t 1 = 0
    ∧ win0_2.index t 0 = 0
    ∧ win0_3.index t 0 = t.val ∧ win0_3.index t 1 = 0
    ∧ win0_3.xsize (grid0.coords t) 0 = (if t.val < 61 then 8192 else 288) :=
  (by decide +kernel : ∀ t : Fin grid0.N,
    win0_0.index t 0 = t.val ∧ win0_0.index t 1 = 0
    ∧ win0_1.index t 0 = t.val ∧ win0_1.index t 1 = 0
    ∧ win0_2.index t 0 = 0
    ∧ win0_3.index t 0 = t.val ∧ win0_3.index t 1 = 0
    ∧ win0_3.xsize (grid0.coords t) 0 = (if t.val < 61 then 8192 else 288))

/-- A filled-out block at an index of its moved part is the block there. -/
theorem in0_apply (c : Dev nD) (t : Fin cfg0.N) (r : Fin 8192) (k : Fin 64)
    (hr : r.val < win0_3.xsize (grid0.coords t) 0) :
    in0 m c t (ix2 r k) = V m c main_arg0 (ix2 (⟨t.val * 8192 + r.val, by
      obtain ⟨-, -, -, -, -, -, -, e⟩ := idx_facts t; have h62 : t.val < 62 := t.isLt.trans_eq N_0; split at e <;> omega⟩ : Fin 500000) k) := by
  obtain ⟨h0, -, h0c, -, -⟩ := xs_facts t
  obtain ⟨e0, e1, -⟩ := idx_facts t
  have hm : win0_0.moved (grid0.coords t) (ix2 r k) = true := (win0_0.moved_iff _ _).mpr fun a => by
    match a with
    | ⟨0, _⟩ => exact hr.trans_eq h0.symm
    | ⟨1, _⟩ => exact k.isLt.trans_eq h0c.symm
  unfold in0 Window.fill
  rw [dif_pos hm]
  unfold iblk
  rw [View.read_apply]
  show V m c main_arg0 (((cfg0.win 0).blk t).view.emb _) = _
  refine congrArg (V m c main_arg0) (funext fun a => Fin.ext ?_)
  match a with
  | ⟨0, _⟩ => show win0_0.index t 0 * 8192 + 1 * r.val = t.val * 8192 + r.val; rw [e0]; omega
  | ⟨1, _⟩ => show win0_0.index t 1 * 64 + 1 * k.val = k.val; rw [e1]; omega

theorem in1_apply (c : Dev nD) (t : Fin cfg0.N) (r : Fin 8192) (k : Fin 64)
    (hr : r.val < win0_3.xsize (grid0.coords t) 0) :
    in1 m c t (ix2 r k) = V m c main_arg1 (ix2 (⟨t.val * 8192 + r.val, by
      obtain ⟨-, -, -, -, -, -, -, e⟩ := idx_facts t; have h62 : t.val < 62 := t.isLt.trans_eq N_0; split at e <;> omega⟩ : Fin 500000) k) := by
  obtain ⟨-, h1, -, h1c, -⟩ := xs_facts t
  obtain ⟨-, -, e0, e1, -⟩ := idx_facts t
  have hm : win0_1.moved (grid0.coords t) (ix2 r k) = true := (win0_1.moved_iff _ _).mpr fun a => by
    match a with
    | ⟨0, _⟩ => exact hr.trans_eq h1.symm
    | ⟨1, _⟩ => exact k.isLt.trans_eq h1c.symm
  unfold in1 Window.fill
  rw [dif_pos hm]
  unfold iblk
  rw [View.read_apply]
  show V m c main_arg1 (((cfg0.win 1).blk t).view.emb _) = _
  refine congrArg (V m c main_arg1) (funext fun a => Fin.ext ?_)
  match a with
  | ⟨0, _⟩ => show win0_1.index t 0 * 8192 + 1 * r.val = t.val * 8192 + r.val; rw [e0]; omega
  | ⟨1, _⟩ => show win0_1.index t 1 * 64 + 1 * k.val = k.val; rw [e1]; omega

/-- The vector's block is the vector. -/
theorem vec_apply (c : Dev nD) (t : Fin cfg0.N) (k : Fin 128) : iblk m c 2 t (ix1 k) = V m c main_arg2 (ix1 k) := by
  obtain ⟨-, -, -, -, e2, -⟩ := idx_facts t
  unfold iblk
  rw [View.read_apply]
  show V m c main_arg2 (((cfg0.win 2).blk t).view.emb _) = _
  refine congrArg (V m c main_arg2) (funext fun a => Fin.ext ?_)
  match a with
  | ⟨0, _⟩ => show win0_2.index t 0 * 128 + 1 * k.val = k.val; rw [e2]; omega

/-- What point t writes back is block t of the specification's function of the whole arrays. -/
theorem flushed_eq (c : Dev nD) (t : Fin cfg0.N) :
    (dats m 0 c).flushed 3 t = ((cfg0.win 3).blk t).view.read (Elt F) (GV m c) := by
  obtain ⟨-, -, -, -, -, e0, e1, -⟩ := idx_facts t
  obtain ⟨-, -, -, -, hc⟩ := xs_facts t
  show (cfg0.win 3).cut (cfg0.grid.coords t) ((dats m 0 c).after 3 t) = _
  rw [after0_3, out3_eq_G]
  funext j
  rw [View.read_apply]
  have hr : (j 0).val < win0_3.xsize (grid0.coords t) 0 := (j 0).isLt
  have hq : (j 1).val < 256 := (j 1).isLt.trans_eq hc
  have hr8 : (j 0).val < 8192 := lt_of_lt_of_le hr (win0_3.xsize_le _ 0)
  -- the two indices, by coordinates
  have hL : win0_3.xinj (grid0.coords t) j = ix2 (⟨(j 0).val, hr8⟩ : Fin 8192) (⟨(j 1).val, hq⟩ : Fin 256) :=
    funext fun a => Fin.ext (by match a with | ⟨0, _⟩ => rfl | ⟨1, _⟩ => rfl)
  have hlt : t.val * 8192 + (j 0).val < 500000 := by
    obtain ⟨-, -, -, -, -, -, -, e⟩ := idx_facts t; have h62 : t.val < 62 := t.isLt.trans_eq N_0; split at e <;> omega
  have hR : ((cfg0.win 3).blk t).view.emb j = ix2 (⟨t.val * 8192 + (j 0).val, hlt⟩ : Fin 500000) (⟨(j 1).val, hq⟩ : Fin 256) :=
    funext fun a => Fin.ext (by
      match a with
      | ⟨0, _⟩ => show win0_3.index t 0 * 8192 + 1 * (j 0).val = t.val * 8192 + (j 0).val; rw [e0]; omega
      | ⟨1, _⟩ => show win0_3.index t 1 * 256 + 1 * (j 1).val = (j 1).val; rw [e1]; omega)
  show Cert.Spec.G (n := 8192) (in0 m c t) (in1 m c t) (iblk m c 2 t) (win0_3.xinj (grid0.coords t) j) = GV m c (((cfg0.win 3).blk t).view.emb j)
  rw [hL, hR, Cert.Spec.G_apply]
  show _ = Cert.Spec.rowAt (V m c main_arg0) (V m c main_arg1) (V m c main_arg2) (⟨t.val * 8192 + (j 0).val, hlt⟩ : Fin 500000) (⟨(j 1).val, hq⟩ : Fin 256)
  by_cases h64 : (j 1).val < 64
  · rw [Cert.Spec.rowAt_left _ _ _ _ ⟨(j 1).val, hq⟩ ⟨(j 1).val, h64⟩ rfl, Cert.Spec.rowAt_left _ _ _ _ ⟨(j 1).val, hq⟩ ⟨(j 1).val, h64⟩ rfl,
      in0_apply m c t ⟨(j 0).val, hr8⟩ ⟨(j 1).val, h64⟩ hr]
  · by_cases h128 : (j 1).val < 128
    · have hk : (j 1).val - 64 < 64 := by omega
      rw [Cert.Spec.rowAt_mid _ _ _ _ ⟨(j 1).val, hq⟩ ⟨(j 1).val - 64, hk⟩ (by show 64 + ((j 1).val - 64) = (j 1).val; omega),
        Cert.Spec.rowAt_mid _ _ _ _ ⟨(j 1).val, hq⟩ ⟨(j 1).val - 64, hk⟩ (by show 64 + ((j 1).val - 64) = (j 1).val; omega),
        in1_apply m c t ⟨(j 0).val, hr8⟩ ⟨(j 1).val - 64, hk⟩ hr]
    · have hk : (j 1).val - 128 < 128 := by omega
      rw [Cert.Spec.rowAt_right _ _ _ _ ⟨(j 1).val, hq⟩ ⟨(j 1).val - 128, hk⟩ (by show 128 + ((j 1).val - 128) = (j 1).val; omega),
        Cert.Spec.rowAt_right _ _ _ _ ⟨(j 1).val, hq⟩ ⟨(j 1).val - 128, hk⟩ (by show 128 + ((j 1).val - 128) = (j 1).val; omega),
        vec_apply m c t ⟨(j 1).val - 128, hk⟩]

/-- An index of the result array is in point t's block iff its row is among the rows the point moves. -/
theorem mem_blk (t : Fin cfg0.N) (i : S500000x256.Idx) :
    i ∈ ((cfg0.win 3).blk t).view.set ↔ ∀ a : Fin 2, win0_3.index t a * S8192x256.size a ≤ (i a).val
      ∧ (i a).val < win0_3.index t a * S8192x256.size a + win0_3.xsize (grid0.coords t) a := by
  show i ∈ ((View.whole main_v0).slice (win0_3.rect t)).set ↔ _
  rw [View.set_slice_whole, Rect.mem_set_unit]
  exact Iff.rfl

/-- Every index of the result array is in the block of the point its row falls to. -/
theorem cover (i : S500000x256.Idx) : ∃ t : Fin cfg0.N, (cfg0.win 3).flush t = true ∧ i ∈ ((cfg0.win 3).blk t).view.set := by
  have hi0 : (i 0).val < 500000 := (i 0).isLt
  have hi1 : (i 1).val < 256 := (i 1).isLt
  have hN : cfg0.N = 62 := N_0
  let t : Fin cfg0.N := ⟨(i 0).val / 8192, by rw [hN]; omega⟩
  have htv : t.val = (i 0).val / 8192 := rfl
  obtain ⟨-, -, -, -, -, e0, e1, ex⟩ := idx_facts t
  obtain ⟨-, -, -, -, hc⟩ := xs_facts t
  refine ⟨t, flush0_3 t, (mem_blk t i).mpr fun a => ?_⟩
  match a with
  | ⟨0, _⟩ =>
    show win0_3.index t 0 * 8192 ≤ (i 0).val ∧ (i 0).val < win0_3.index t 0 * 8192 + win0_3.xsize (grid0.coords t) 0
    rw [e0, ex, htv]
    split <;> omega
  | ⟨1, _⟩ =>
    show win0_3.index t 1 * 256 ≤ (i 1).val ∧ (i 1).val < win0_3.index t 1 * 256 + win0_3.xsize (grid0.coords t) 1
    rw [e1, hc]; omega

/-- The result array after the run. -/
theorem final (c : Dev nD) : (dats m 0 c).arrAt 3 cfg0.N = GV m c :=
  (dats m 0 c).arrAt_eq_of_cover 3 (GV m c) (fun t _ => flushed_eq m c t) cover

/-- The run, read: the result array ends at the specification's function of the argument arrays, and the arguments
    are unchanged. -/
theorem run : θ_run defs (onTc (τ := τ) (main (F := F))) ⟨m, fun _ => 0, ρ⟩ fun r => ∀ c : Dev nD,
      r.2.mem ((c : Thread nD τ).loc main_v0)
        = Cert.Spec.G (n := 500000) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefRead.lean ====
/-
  The host reference program's result as one closed-form array of its three arguments, read at an index.

  out is the composed term of the program's operations: the two tables set side by side, the leaky rectifier applied
  entrywise (x >= 0 selects x, otherwise slope * x), and the vector broadcast to every row set beside it. Read at
  entry (r, q) it is the specification's row function: for q < 64 the rectifier of the first table's entry (r, q), for
  64 <= q < 128 the rectifier of the second table's entry (r, q - 64), and from 128 on the vector's entry q - 128. The
  only arithmetic fact used is that multiplication of extended reals commutes (the program multiplies slope * x, the
  specification x * slope); the two constants are the same words on both sides and are never evaluated.
-/
import proofs.«157472_j532575945120_2_alg».proof.ReferenceIdeal
import proofs.«157472_j532575945120_2_alg».proof.Proof.Gen.ReferenceIdeal
import proofs.«157472_j532575945120_2_alg».proof.Proof.Spec
import proofs.«157472_j532575945120_2_alg».proof.Proof.LibConcatCols
import Idealize.ShloMosaic.Lib.Pipeline.Value
import Idealize.ShloMosaic.Lib.IdealHost
import Idealize.ShloMosaic.Lib.ValueIdx

noncomputable section

open Idealize.ShloMosaic Idealize.SL.Sem

namespace Cert.ReferenceIdeal.RefValue

open Cert.ReferenceIdeal Cert.ReferenceIdeal.Gen Idealize.ShloMosaic.ValueIdx Cert.Lib.ConcatCols

section AnyFloat
variable {F : FTy → Type} [FloatOps F]

/-- The operations' composed term: the result array as a function of the three argument arrays. -/
def out (a0 a1 : (⟨S500000x64, .f32⟩ : BufTy).Contents (Elt F)) (a2 : (⟨S128, .f32⟩ : BufTy).Contents (Elt F)) :
    (⟨S500000x256, .f32⟩ : BufTy).Contents (Elt F) :=
  concatenate S500000x256 1
    [⟨S500000x128,
        select
          (cmpf .oge
            (concatenate S500000x128 1 [⟨S500000x64, a0⟩, ⟨S500000x64, a1⟩] concatenates_S500000x64_S500000x64_S500000x128_d1)
            (broadcastInDim S500000x128 ![] bcast_S_S500000x128 (constant S_ .f32 0x00000000#32)))
          (concatenate S500000x128 1 [⟨S500000x64, a0⟩, ⟨S500000x64, a1⟩] concatenates_S500000x64_S500000x64_S500000x128_d1)
          (mulf (broadcastInDim S500000x128 ![] bcast_S_S500000x128 (constant S_ .f32 0x3E4CCCCD#32))
            (concatenate S500000x128 1 [⟨S500000x64, a0⟩, ⟨S500000x64, a1⟩] concatenates_S500000x64_S500000x64_S500000x128_d1))⟩,
      ⟨S500000x128, broadcastInDim S500000x128 ![0, 1] bcast_S1x128_S500000x128_0_1 (broadcastInDim S1x128 ![1] bcast_S128_S1x128_1 a2)⟩]
    concatenates_S500000x128_S500000x128_S500000x256_d1

/-- The vector broadcast to one row and then to every row, read at entry (r, k): the vector's entry k. -/
theorem rows_apply {α : Type} (u : S128.Idx → α) (r : Fin 500000) (k : Fin 128) :
    broadcastInDim S500000x128 ![0, 1] bcast_S1x128_S500000x128_0_1 (broadcastInDim S1x128 ![1] bcast_S128_S1x128_1 u) (ix2 r k)
      = u (ix1 k) := by
  refine (broadcastInDim_apply _ _ _ (ix2 r k) (ix2 (0 : Fin 1) k) (fun a => by
    match a with
    | ⟨0, _⟩ => rfl
    | ⟨1, _⟩ => rfl)).trans ?_
  exact broadcastInDim_apply _ _ _ (ix2 (0 : Fin 1) k) (ix1 k) (fun a => by
    match a with
    | ⟨0, _⟩ => rfl)

end AnyFloat

/-- The rectifier's three array operations read at an index, over extended reals: the specification's rectifier of the
    entry. The program's product is slope * x, the specification's x * slope. -/
theorem leaky_apply (v : S500000x128.Idx → Ideal .f32) (i : S500000x128.Idx) :
    select (cmpf .oge v (broadcastInDim S500000x128 ![] bcast_S_S500000x128 (constant (F := Ideal) S_ .f32 0x00000000#32))) v
        (mulf (broadcastInDim S500000x128 ![] bcast_S_S500000x128 (constant (F := Ideal) S_ .f32 0x3E4CCCCD#32)) v) i
      = Cert.Spec.leaky (F := Ideal) (v i) := by
  rw [select_apply, cmpf_apply, mulf_apply, broadcastInDim_scalar_apply, broadcastInDim_scalar_apply, constant_apply, constant_apply]
  unfold Cert.Spec.leaky
  rw [mul_comm]
  rfl

/-- The composed term is the specification's array: entry by entry, by the three ranges of columns. -/
theorem out_eq (a0 a1 : S500000x64.Idx → Ideal .f32) (a2 : S128.Idx → Ideal .f32) :
    out (F := Ideal) a0 a1 a2 = Cert.Spec.G (F := Ideal) (n := 500000) a0 a1 a2 := by
  funext j
  obtain ⟨r, q, rfl⟩ : ∃ (r : Fin 500000) (q : Fin 256), j = ix2 r q := ⟨j 0, j 1, eq_ix2 j⟩
  rw [Cert.Spec.G_apply]
  unfold out Cert.Spec.rowAt
  by_cases h128 : q.val < 128
  · -- a column of the rectified tables
    refine (concat_cols_left _ _ concatenates_S500000x128_S500000x128_S500000x256_d1 r q ⟨q.val, h128⟩ rfl).trans ?_
    refine (leaky_apply _ _).trans ?_
    by_cases h64 : q.val < 64
    · rw [dif_pos h64,
        concat_cols_left a0 a1 concatenates_S500000x64_S500000x64_S500000x128_d1 r ⟨q.val, h128⟩ ⟨q.val, h64⟩ rfl]
    · rw [dif_neg h64, dif_pos h128,
        concat_cols_right a0 a1 concatenates_S500000x64_S500000x64_S500000x128_d1 r ⟨q.val, h128⟩ ⟨q.val - 64, by omega⟩
          (by show 64 + (q.val - 64) = q.val; omega)]
  · -- a column of the vector
    have h64 : ¬ q.val < 64 := by omega
    have hq := q.isLt
    rw [dif_neg h64, dif_neg h128]
    refine (concat_cols_right _ _ concatenates_S500000x128_S500000x128_S500000x256_d1 r q ⟨q.val - 128, by omega⟩
      (by show 128 + (q.val - 128) = q.val; omega)).trans ?_
    exact rows_apply a2 r _

end Cert.ReferenceIdeal.RefValue

end
-- ==== Proof.RefRun.lean ====
/-
  The run of the host reference program, read back as one function of its three argument arrays.

  The program is a straight line of twelve host operations once its two outlined functions are unfolded at their
  calls: the concatenation of the two tables along the columns, the slope constant, the six operations of the leaky
  rectifier (the zero constant, its broadcast, the comparison x >= 0, the slope converted to its own type, its
  broadcast, the product slope * x), the select of the inner function, the two broadcasts of the vector to a full
  array, and the final concatenation along the columns. Every weakly fair execution terminates with the result buffer
  at the operations' composed term of the arguments' launch contents and the arguments unchanged (run_ops); that term
  is the specification's array, entry by entry (out_eq, in the module imported here), which gives the statement of run.
-/
import proofs.«157472_j532575945120_2_alg».proof.ReferenceIdeal
import proofs.«157472_j532575945120_2_alg».proof.Proof.Gen.ReferenceIdeal
import proofs.«157472_j532575945120_2_alg».proof.Proof.Spec
import proofs.«157472_j532575945120_2_alg».proof.Proof.RefRead
import Idealize.ShloMosaic.Lib.StableHlo.Run

noncomputable section

open Idealize.ShloMosaic Idealize.ShloMosaic.TcCoe Idealize.SL.Sem

namespace Cert.ReferenceIdeal.RefValue

open Cert.ReferenceIdeal Cert.ReferenceIdeal.Gen Idealize.ShloMosaic.StableHlo

variable {F : FTy → Type} [FloatOps F]

/-- The program's twelve operations in execution order, the two outlined functions unfolded at their calls. -/
abbrev ops : List (HloOp τ sig (Elt F)) :=
  [ binary main_arg0 main_arg1 main_v0 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst (constant S_ .f32 0x3E4CCCCD#32),
    TRef.nullary main_call0.cst (constant S_ .f32 0x00000000#32),
    TRef.unary main_call0.cst main_call0.v0 (broadcastInDim S500000x128 ![] bcast_S_S500000x128),
    TRef.binary (.of main_v0) main_call0.v0 main_call0.v1 (cmpf .oge),
    TRef.unary (.of main_cst) main_call0.v2 id,
    TRef.unary main_call0.v2 main_call0.v3 (broadcastInDim S500000x128 ![] bcast_S_S500000x128),
    TRef.binary main_call0.v3 (.of main_v0) main_call0.v4 mulf,
    TRef.ternary main_call0.v1 (.of main_v0) main_call0.v4 main_call0.call0.v0 select,
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S500000x128 ![0, 1] bcast_S1x128_S500000x128_0_1 : (⟨S1x128, .f32⟩ : BufTy).Contents (Elt F) → (⟨S500000x128, .f32⟩ : BufTy).Contents (Elt F)),
    binary main_v1 main_v3 main_v4 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)) ]

set_option maxRecDepth 1024 in
/-- The program is that straight line: the two functions' definitions unfolded at their calls, both sides are one
    chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., unary_bufs_sub .., unary_bufs_sub .., binary_bufs_sub ..⟩

/-- On every device, for any float values, from any memory with zero counters: every weakly fair execution of the
    program terminates with the result buffer at the composed term of the arguments and the arguments unchanged. -/
theorem run_ops (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

/-- At the extended reals: every weakly fair execution of the program terminates with the result buffer at the
    specification's array of the three arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Spec.G (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq _ _ _), (h c).2⟩) (run_ops m ρ)

end Cert.ReferenceIdeal.RefValue

end
-- ==== Proof.lean ====
/-
  The five claims about the check-in embedding kernel and its reference.

  Both programs compute, for each of 500000 rows, the leaky rectifier (slope word 0x3E4CCCCD, the same on both sides)
  of the row's 64 entries of the first table and of its 64 entries of the second, followed by the 128-entry vector:
  the specification's function G of the three argument arrays. The kernel rectifies each table block and then joins
  them; the reference joins the tables and then rectifies; entry by entry these are the same operation on the same
  number, and the product with the slope is taken in the other order by the reference, which is commutativity of the
  product of extended reals. No law used needs finiteness, so the precondition is never opened.

  The frames: each kernel program runs to the end, faults nowhere and leaves its arguments unchanged, at the word-level
  reading and at the exact reading alike (one proof, for any reading of the floats; the 62 grid points' last blocks
  overhang the arrays by 7904 rows, which are never moved); the reference's frame is its run with the result dropped.
  The exact reading rewrote no operation of the kernel, so the idealization claim is trivial.
-/
import proofs.«157472_j532575945120_2_alg».proof.Defs
import proofs.«157472_j532575945120_2_alg».proof.Proof.Gen.Kernel
import proofs.«157472_j532575945120_2_alg».proof.Proof.Gen.KernelIdeal
import proofs.«157472_j532575945120_2_alg».proof.Proof.Gen.ReferenceIdeal
import proofs.«157472_j532575945120_2_alg».proof.Proof.Gen.Pre_finite_inputs
import proofs.«157472_j532575945120_2_alg».proof.Proof.FrameK
import proofs.«157472_j532575945120_2_alg».proof.Proof.ValI
import proofs.«157472_j532575945120_2_alg».proof.Proof.RefRun

noncomputable section

namespace Cert.Proof

open Idealize.ShloMosaic Idealize.ShloMosaic.TcCoe Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments, the kernel's result array and the reference's both end at G of the
    arguments. -/
theorem algebraic : Cert.algebraic_KernelIdeal_ReferenceIdeal := by
  intro m ρ m' ρ' _ hagree
  refine ⟨_, Cert.KernelIdeal.Val.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
